-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x1024 : Shape := ⟨2, ![512, 1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S32768x512 .f32) (main_arg1 : FVec F S512x1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S32768x512 : Shape := ⟨2, ![32768, 512]⟩
abbrev S512x1024 : Shape := ⟨2, ![512, 1024]⟩
abbrev S_ : Shape := ⟨0, ![]⟩
abbrev S1024 : Shape := ⟨1, ![1024]⟩
abbrev S1x1024 : Shape := ⟨2, ![1, 1024]⟩
abbrev S32768x1024 : Shape := ⟨2, ![32768, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 14
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S512x1024, .f32⟩
  | .hbm, ⟨2, _⟩ => ⟨S_, .f32⟩
  | .hbm, ⟨3, _⟩ => ⟨S512x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x1024 : S_.BroadcastsInDim S512x1024 (![] : Fin 0 → Fin S512x1024.rank)
  bitsLt_bf16_f32 : FTy.bits .bf16 < FTy.bits .f32
  reducesTo_S512x1024_S1024_d0 : S512x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x1024 : Shape := ⟨2, ![512, 1024]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x1024, .f32⟩
  | .hbm, ⟨2, _⟩ => ⟨S32768x512, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S512x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S512x1024_S1024_d0 : S512x1024.ReducesTo [0] S1024
  bcast_S1024_S1x1024_1 : S1024.BroadcastsInDim S1x1024 (![1] : Fin 1 → Fin S1x1024.rank)
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  dot_S32768x512_S512x1024_S32768x1024_1_0_0_1_n_n_wf : DotDims.WF S32768x512 S512x1024 S32768x1024 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf

class Facts : Prop extends Facts₀ where

variable [Facts]
-- ==== Proof.Consts.lean ====
/-
  The three float literals whose VALUES matter for the equivalence, as the extended reals they denote.

  The kernel scales the centres by the word 0x3E4CCCCD before the matrix product and scales both squared norms by
  the word 0xBDCCCCCD; the reference multiplies the matrix product by 2 (0x40000000) and the whole squared distance
  by 0xBDCCCCCD. Writing c for the dyadic rational 13421773 / 2^27 (the binary32 nearest to 1/10), the words denote
  2c, -c, 2 and -c: the kernel's scale is EXACTLY minus two times the common factor, because doubling a binary
  float only moves its exponent. That identity, not the decimal 0.2 = 2 · 0.1, is what makes the two programs
  agree over the extended reals.
-/
import Idealize.ShloMosaic.PureOps.Ideal

noncomputable section

namespace Cert.Rbf.Consts

open Idealize.ShloMosaic

/-- The dyadic rational nearest to one tenth in binary32. -/
def tenth : ℝ := 13421773 / 134217728

/-- The word 0xBDCCCCCD denotes minus that dyadic. -/
theorem ofBits_negTenth : Ideal.ofBits .f32 0xBDCCCCCD#32 = ((-tenth : ℝ) : EReal) := by
  simp [Ideal.ofBits, Ideal.ieee, tenth, -EReal.coe_mul]; norm_num

/-- The word 0x3E4CCCCD denotes twice that dyadic. -/
theorem ofBits_twoTenths : Ideal.ofBits .f32 0x3E4CCCCD#32 = ((2 * tenth : ℝ) : EReal) := by
  simp [Ideal.ofBits, Ideal.ieee, tenth, -EReal.coe_mul]; norm_num

/-- The word 0x40000000 denotes two. -/
theorem ofBits_two : Ideal.ofBits .f32 0x40000000#32 = ((2 : ℝ) : EReal) := by
  simp [Ideal.ofBits, Ideal.ieee, -EReal.coe_mul]; norm_num

/-- The zero word denotes zero. -/
theorem ofBits_zero : Ideal.ofBits .f32 0x00000000#32 = ((0 : ℝ) : EReal) := by
  simp [Ideal.ofBits, Ideal.ieee]

end Cert.Rbf.Consts

end
-- ==== Proof.Spec.lean ====
/-
  The radial-basis layer as ONE function of the two argument arrays, and the algebraic law that joins its two
  arrangements.

  For a sample row x (512 entries of the array X) and a centre column m (512 entries of the array M) both programs
  compute exp(-c·‖x - m‖²), c the binary32 nearest to 1/10, through the expansion ‖x - m‖² = ‖x‖² - 2⟨x, m⟩ + ‖m‖²:

    the reference     exp( (-c) · ( ((0 + Σ x²) - 2 · Σ x·m) + (0 + Σ m²) ) )
    the kernel        exp( ((-c) · Σ x² + Σ x·((2c)·m)) + (-c) · (0 + Σ m²) )

  The kernel has moved the factor -c inside the bracket and folded -c · (-2) = 2c into the centres before the matrix
  product. Both steps are distributivity, which on the extended reals holds only away from the infinities; so the
  law is stated and proved for REAL entries (every entry the coercion of a real number), where the whole
  computation stays inside the reals and is a ring identity under the exponential.
-/
import Idealize.ShloMosaic.PureOps.Ideal
import Idealize.ShloMosaic.Lib.ValueIdx
import proofs.«115976_j75771813037022_2_alg».proof.Proof.Consts

noncomputable section

open scoped BigOperators

namespace Cert.Rbf

open Idealize.ShloMosaic Idealize.ShloMosaic.ValueIdx

/-- The coercion of the reals into the extended reals commutes with finite sums. -/
theorem coe_finset_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals, for any finite index set: moving the factor -c into the bracket and the factor 2c
    into the second operand of the inner product. -/
theorem expansion_real {ι : Type*} [Fintype ι] (x m : ι → ℝ) (c : ℝ) :
    (-c * ∑ k, x k * x k + ∑ k, x k * (2 * c * m k)) + -c * (0 + ∑ k, m k * m k)
      = -c * (((0 + ∑ k, x k * x k) - 2 * ∑ k, x k * m k) + (0 + ∑ k, m k * m k)) := by
  have h : ∑ k, x k * (2 * c * m k) = 2 * c * ∑ k, x k * m k := by
    rw [Finset.mul_sum]; exact Finset.sum_congr rfl fun k _ => by ring
  rw [h]; ring

/-- The same law on the extended reals, for entries that are real. -/
theorem expansion {ι : Type*} [Fintype ι] (x m : ι → ℝ) (c : ℝ) :
    (((-c : ℝ) : EReal) * ∑ k, (x k : EReal) * (x k : EReal) + ∑ k, (x k : EReal) * (((2 * c : ℝ) : EReal) * (m k : EReal)))
        + ((-c : ℝ) : EReal) * (((0 : ℝ) : EReal) + ∑ k, (m k : EReal) * (m k : EReal))
      = ((-c : ℝ) : EReal) * (((((0 : ℝ) : EReal) + ∑ k, (x k : EReal) * (x k : EReal))
            - ((2 : ℝ) : EReal) * ∑ k, (x k : EReal) * (m k : EReal))
          + (((0 : ℝ) : EReal) + ∑ k, (m k : EReal) * (m k : EReal))) := by
  simp only [← EReal.coe_mul, ← coe_finset_sum, ← EReal.coe_add, ← EReal.coe_sub]
  exact congrArg _ (expansion_real x m c)

/-! ## The two arrangements over the argument arrays -/

/-- The shapes of the sample array, the centre array and the result. -/
abbrev SX : Shape := ⟨2, ![32768, 512]⟩
abbrev SM : Shape := ⟨2, ![512, 1024]⟩
abbrev SO : Shape := ⟨2, ![32768, 1024]⟩

/-- The reference's arrangement at sample row `n` and centre `u`. -/
def refForm (X : SX.Idx → EReal) (M : SM.Idx → EReal) (n : Fin 32768) (u : Fin 1024) : EReal :=
  Ideal.exp (Ideal.ofBits .f32 0xBDCCCCCD#32
    * (((Ideal.ofBits .f32 0x00000000#32 + ∑ k : Fin 512, X (ix2 n k) * X (ix2 n k))
          - Ideal.ofBits .f32 0x40000000#32 * ∑ k : Fin 512, X (ix2 n k) * M (ix2 k u))
        + (Ideal.ofBits .f32 0x00000000#32 + ∑ k : Fin 512, M (ix2 k u) * M (ix2 k u))))

/-- The kernel's arrangement at sample row `n` and centre `u`. -/
def kernelForm (X : SX.Idx → EReal) (M : SM.Idx → EReal) (n : Fin 32768) (u : Fin 1024) : EReal :=
  Ideal.exp ((Ideal.ofBits .f32 0xBDCCCCCD#32 * ∑ k : Fin 512, X (ix2 n k) * X (ix2 n k)
        + ∑ k : Fin 512, X (ix2 n k) * (Ideal.ofBits .f32 0x3E4CCCCD#32 * M (ix2 k u)))
      + Ideal.ofBits .f32 0xBDCCCCCD#32 * (Ideal.ofBits .f32 0x00000000#32 + ∑ k : Fin 512, M (ix2 k u) * M (ix2 k u)))

/-- The result array both programs are shown to hold: the reference's arrangement, index by index. -/
def rbf (X : SX.Idx → EReal) (M : SM.Idx → EReal) : SO.Idx → EReal :=
  fun i => refForm X M (i 0) (i 1)

/-- On real entries the kernel's arrangement IS the reference's: the three literals denote -c, 2c and 2, and the
    expansion law applies to the row of `X` and the column of `M`. -/
theorem kernelForm_eq_refForm (X : SX.Idx → EReal) (M : SM.Idx → EReal) (xr : SX.Idx → ℝ) (mr : SM.Idx → ℝ)
    (hX : ∀ i, X i = (xr i : EReal)) (hM : ∀ i, M i = (mr i : EReal)) (n : Fin 32768) (u : Fin 1024) :
    kernelForm X M n u = refForm X M n u := by
  unfold kernelForm refForm
  simp only [hX, hM, Consts.ofBits_negTenth, Consts.ofBits_twoTenths, Consts.ofBits_two, Consts.ofBits_zero]
  exact congrArg Ideal.exp (expansion (fun k => xr (ix2 n k)) (fun k => mr (ix2 k u)) Consts.tenth)

end Cert.Rbf

end
-- ==== Proof.Finite.lean ====
/-
  What the precondition gives: every entry of both argument arrays is a real number.

  The precondition is the conjunction of two `all`-reductions, one per array, of the comparison |x| < +∞ entry by
  entry. An extended real whose absolute value max x (-x) lies strictly below the top element is neither infinity,
  hence the coercion of a real.
-/
import proofs.«115976_j75771813037022_2_alg».proof.Pre_finite_inputs
import Idealize.ShloMosaic.Lib.ReduceAll
import Idealize.ShloMosaic.Lib.ValueIdx
import Idealize.ShloMosaic.PureOps.Ideal.Laws

noncomputable section

namespace Cert.Rbf.Finite

open Idealize.ShloMosaic

/-- The scalar shape has one index. -/
instance : Subsingleton Cert.Pre_finite_inputs.S_.Idx := ⟨fun a b => funext fun d => d.elim0⟩

/-- The word 0x7F800000 denotes the top element. -/
theorem ofBits_inf : Ideal.ofBits .f32 0x7F800000#32 = ⊤ := by
  simp [Ideal.ofBits, Ideal.ieee]

/-- An extended real whose absolute value is strictly below +∞ is a real number. -/
theorem real_of_abs_lt_top (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | top => exact absurd h' (by simp [Ideal.cmp])
  | coe r => exact ⟨r, rfl⟩

/-- Under the precondition both arrays have real entries. -/
theorem real_of_pre [Cert.Pre_finite_inputs.Facts] (X : FVec Ideal Cert.Pre_finite_inputs.S32768x512 .f32)
    (M : FVec Ideal Cert.Pre_finite_inputs.S512x1024 .f32)
    (h : Cert.Pre_finite_inputs.fn (F := Ideal) X M = fun _ => 1#1) :
    (∀ i, ∃ r : ℝ, X i = (r : EReal)) ∧ (∀ i, ∃ r : ℝ, M i = (r : EReal)) := by
  have h0 := congrFun h ValueIdx.ix0
  dsimp only [Cert.Pre_finite_inputs.fn] at h0
  obtain ⟨hx, hm⟩ := IntOp.andi_eq_one.mp h0
  exact ⟨fun i => real_of_abs_lt_top (X i) (Host.reduce_andi_all _ _ _ _ _ hx i),
    fun i => real_of_abs_lt_top (M i) (Host.reduce_andi_all _ _ _ _ _ hm i)⟩

end Cert.Rbf.Finite

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.Body.lean ====
/-
  One grid point of the kernel, read at an index.

  The body takes a block of 1024 sample rows `x` (1024 × 512), the pre-scaled centres `w` (512 × 1024, rounded to
  bf16 — which at the extended reals is no change) and the row `b` of pre-scaled squared centre norms (1 × 1024),
  and stores, at row p and column q,

      exp( ((-c) · Σ_k x[p,k]² + Σ_k x[p,k] · w[k,q]) + b[0,q] ).

  The row sum is a one-axis reduction kept as a column and broadcast across the columns; the middle term is the
  matrix product into a zero accumulator, a plain sum over the contracted axis at the extended reals; the last term
  is the one row broadcast down the rows.
-/
import proofs.«115976_j75771813037022_2_alg».proof.Proof.Gen.KernelIdeal.Skeleton
import proofs.«115976_j75771813037022_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Rbf.Body

open Cert.KernelIdeal Cert.KernelIdeal.Gen Idealize.ShloMosaic Idealize.ShloMosaic.ValueIdx

/-- The sum over the second axis of a 1024 × 512 block, at row `p`: the sum over `k` of the block at `(p, k)`. -/
theorem rowSum_apply (v : FVec Ideal S1024x512 .f32) (hφ : FKind.Formats .f32)
    (hacc : (0x00000000#32 : BitVec 32) = FKind.add.neutral .f32 hφ) (p : Fin 1024) :
    multiReduction (F := Ideal) .add [1] S1024 v 0x00000000#32 reduces_S1024x512_S1024 hφ hacc (ix1 p)
      = ∑ k : Fin 512, v (ix2 p k) := by
  refine (Ideal.multiReduction_add_single v 0x00000000#32 reduces_S1024x512_S1024 hφ hacc (ix1 p)).trans ?_
  refine Finset.sum_congr rfl fun k _ => congrArg v (funext fun a => Fin.ext ?_)
  match a with
  | ⟨0, _⟩ => rfl
  | ⟨1, _⟩ => rfl

/-- The four coordinates of the matrix product's operand indices at output index `i` and contraction index `κ`:
    the left operand is read at (row of `i`, `κ`), the right operand at (`κ`, column of `i`). -/
theorem lhs_row (i : S1024x1024.Idx) (κ : dot_S1024x512_S512x1024_S1024x1024_1_0_0_1_n_n.contr.Idx) :
    (dot_S1024x512_S512x1024_S1024x1024_1_0_0_1_n_n.lhsIdx i κ 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_col (i : S1024x1024.Idx) (κ : dot_S1024x512_S512x1024_S1024x1024_1_0_0_1_n_n.contr.Idx) :
    (dot_S1024x512_S512x1024_S1024x1024_1_0_0_1_n_n.lhsIdx i κ 1).val = (κ ⟨0, by decide⟩).val :=
  dot_S1024x512_S512x1024_S1024x1024_1_0_0_1_n_n.lhsIdx_val_of_single rfl i κ
theorem rhs_row (i : S1024x1024.Idx) (κ : dot_S1024x512_S512x1024_S1024x1024_1_0_0_1_n_n.contr.Idx) :
    (dot_S1024x512_S512x1024_S1024x1024_1_0_0_1_n_n.rhsIdx i κ 0).val = (κ ⟨0, by decide⟩).val :=
  dot_S1024x512_S512x1024_S1024x1024_1_0_0_1_n_n.rhsIdx_val_of_single rfl i κ
theorem rhs_col (i : S1024x1024.Idx) (κ : dot_S1024x512_S512x1024_S1024x1024_1_0_0_1_n_n.contr.Idx) :
    (dot_S1024x512_S512x1024_S1024x1024_1_0_0_1_n_n.rhsIdx i κ 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The block's matrix product into the zero accumulator, at `(p, q)`: the sum over the contracted axis. -/
theorem blockDot_apply (l : FVec Ideal S1024x512 .bf16) (r : FVec Ideal S512x1024 .bf16) (p q : Fin 1024) :
    matmul (F := Ideal) dot_S1024x512_S512x1024_S1024x1024_1_0_0_1_n_n none l r (constant S1024x1024 .f32 0x00000000#32) (ix2 p q)
      = ∑ k : Fin 512, l (ix2 p k) * r (ix2 k q) := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k :=
    funext fun a => Fin.ext (by
      match a with
      | ⟨0, _⟩ => exact lhs_row _ _
      | ⟨1, _⟩ => exact (lhs_col _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q :=
    funext fun a => Fin.ext (by
      match a with
      | ⟨0, _⟩ => exact (rhs_row _ _).trans hk
      | ⟨1, _⟩ => exact rhs_col _ _)
  rw [el, er]

/-- What the body stores at row `p`, column `q` of its output block, from its three input blocks. -/
theorem payload_apply (x : FVec Ideal S1024x512 .f32) (w : FVec Ideal S512x1024 .bf16) (b : FVec Ideal S1x1024 .f32)
    (p q : Fin 1024) :
    k0_pay1 (F := Ideal) x w b (ix2 p q)
      = Ideal.exp ((Ideal.ofBits .f32 0xBDCCCCCD#32 * ∑ k : Fin 512, x (ix2 p k) * x (ix2 p k)
          + ∑ k : Fin 512, x (ix2 p k) * w (ix2 k q)) + b (ix2 (0 : Fin 1) q)) := by
  unfold k0_pay1
  simp only [shapeCast_self]
  show Ideal.exp ((broadcastTo S1024x1024 _ broadcasts_S1024x1_S1024x1024 (ix2 p q)
      + matmul (F := Ideal) dot_S1024x512_S512x1024_S1024x1024_1_0_0_1_n_n none _ _ _ (ix2 p q))
    + broadcastTo S1024x1024 b broadcasts_S1x1024_S1024x1024 (ix2 p q)) = _
  rw [Keepdims.broadcastTo_a1_ab_apply, broadcastTo_1b_ab_apply, blockDot_apply]
  show Ideal.exp ((Ideal.ofBits .f32 0xBDCCCCCD#32 * shapeCast S1024x1 _ shapeCasts_S1024_S1024x1 (ix2 p (0 : Fin 1)) + _) + _) = _
  rw [Keepdims.shapeCast_a_a1_apply]
  refine congrArg Ideal.exp (congrArg₂ (· + ·) (congrArg₂ (· + ·)
    (congrArg (Ideal.ofBits .f32 0xBDCCCCCD#32 * ·) ?_) rfl) rfl)
  exact rowSum_apply (mulf x x) _ _ p

end Cert.Rbf.Body

end
-- ==== Proof.HostPrefix.lean ====
/-
  The two arrays the host computes from the centres before the kernel is launched.

  Before the launch the program scales the centre array `M` (512 × 1024) by the literal 2c and rounds it to bf16 — at
  the extended reals the rounding is the identity — and it sums the squares of each centre column, views the 1024
  sums as one row, and scales the row by the literal -c. The kernel's second and third windows stage these two
  arrays whole at every grid point. Read at an index:

      scaled centres at (k, q)      = (2c) · M[k,q]
      scaled norms at (0, q)        = (-c) · (0 + Σ_k M[k,q]²)
-/
import proofs.«115976_j75771813037022_2_alg».proof.Proof.Gen.KernelIdeal.Frame
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.Rbf.HostPrefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The centre array as launched on core `c`, as a function from indices to extended reals. -/
abbrev centres (c : Dev nD) : S512x1024.Idx → EReal := m ((c : Thread nD τ).loc main_arg1)

/-- The host's sum over the first axis of a 512 × 1024 array, at column `q`: the initial value plus the sum over
    `k` of the array at `(k, q)`. -/
theorem colSum_apply (y : FVec Ideal S512x1024 .f32) (init : FVec Ideal S_ .f32) (q : Fin 1024) :
    Host.reduceAdd (F := Ideal) y init reducesTo_S512x1024_S1024_d0 h_S_ (ix1 q)
      = init (Shape.Idx.first h_S_) + ∑ k : Fin 512, y (ix2 k q) := by
  simp only [Host.reduceAdd, Ideal.hostReduceAdd_def]
  rw [Ideal.hostReduceAdd_single reducesTo_S512x1024_S1024_d0 (by decide)]
  refine congrArg (_ + ·) (Finset.sum_congr rfl fun k _ => ?_)
  exact congrArg y (funext fun a => Fin.ext (by match a with | ⟨0, _⟩ => rfl | ⟨1, _⟩ => rfl))

/-- A scalar splat over any shape reads the scalar everywhere. -/
theorem splat_apply {α : Type} {t : Shape} (h : S_.BroadcastsInDim t (![] : Fin 0 → Fin t.rank)) (x : S_.Idx → α) (i : t.Idx) :
    broadcastInDim t ![] h x i = x ix0 :=
  broadcastInDim_apply _ h x i ix0 (fun a => a.elim0)

/-- A 1024-vector laid out as one row reads, at `(0, q)`, the vector at `q`. -/
theorem asRow_apply {α : Type} (v : S1024.Idx → α) (u : Fin 1) (q : Fin 1024) :
    broadcastInDim S1x1024 ![1] bcast_S1024_S1x1024_1 v (ix2 u q) = v (ix1 q) :=
  broadcastInDim_apply _ bcast_S1024_S1x1024_1 v (ix2 u q) (ix1 q) (fun a => match a with
    | ⟨0, _⟩ => by show q.val = if (1024 : Nat) = 1 then 0 else q.val; rw [if_neg (by decide)])

/-- The scaled centres, as the region finds them: the host's three operations on the centre array. -/
theorem scaled_eq (c : Dev nD) :
    (V m c main_v2 : S512x1024.Idx → EReal)
      = truncf .bf16 (mulf (broadcastInDim S512x1024 ![] bcast_S_S512x1024 (constant (F := Ideal) S_ .f32 0x3E4CCCCD#32))
          (m ((c : Thread nD τ).loc main_arg1))) bitsLt_bf16_f32 := by
  dsimp only [Gen.V, Gen.hostOps0]; after_results

/-- The scaled centres at `(k, q)`. -/
theorem scaled_apply (c : Dev nD) (k : Fin 512) (q : Fin 1024) :
    (V m c main_v2 : S512x1024.Idx → EReal) (ix2 k q)
      = Ideal.ofBits .f32 0x3E4CCCCD#32 * centres m c (ix2 k q) := by
  refine (congrFun (scaled_eq m c) (ix2 k q)).trans ?_
  rw [truncf_apply, mulf_apply, splat_apply, constant_apply]

/-- The scaled squared norms, as the region finds them. -/
theorem norms_eq (c : Dev nD) :
    (V m c main_v7 : S1x1024.Idx → EReal)
      = mulf (broadcastInDim S1x1024 ![] bcast_S_S1x1024 (constant (F := Ideal) S_ .f32 0xBDCCCCCD#32))
          (broadcastInDim S1x1024 ![1] bcast_S1024_S1x1024_1
            (Host.reduceAdd (F := Ideal) (mulf (m ((c : Thread nD τ).loc main_arg1)) (m ((c : Thread nD τ).loc main_arg1)))
              (constant (F := Ideal) S_ .f32 0x00000000#32) reducesTo_S512x1024_S1024_d0 h_S_)) := by
  dsimp only [Gen.V, Gen.hostOps0]; after_results

/-- The scaled squared norms at `(0, q)`. -/
theorem norms_apply (c : Dev nD) (u : Fin 1) (q : Fin 1024) :
    (V m c main_v7 : S1x1024.Idx → EReal) (ix2 u q)
      = Ideal.ofBits .f32 0xBDCCCCCD#32
        * (Ideal.ofBits .f32 0x00000000#32
            + ∑ k : Fin 512, centres m c (ix2 k q) * centres m c (ix2 k q)) := by
  refine (congrFun (norms_eq m c) (ix2 u q)).trans ?_
  rw [mulf_apply, splat_apply, asRow_apply, colSum_apply, constant_apply, constant_apply]
  rfl

end Cert.Rbf.HostPrefix

end
-- ==== Proof.KernelValue.lean ====
/-
  From the kernel's 32 grid points to its whole result array.

  Grid point t stages rows 1024·t … 1024·t + 1023 of the sample array, the whole array of scaled centres and the
  whole row of scaled norms, and writes back rows 1024·t … 1024·t + 1023 of the result. So what point t writes is
  block t of ONE function of the two argument arrays — the kernel's arrangement `kernelForm` — and the 32 blocks
  tile the 32768 rows: the row r lies in the block of point r / 1024. Hence the result array is that function.
-/
import proofs.«115976_j75771813037022_2_alg».proof.Proof.Gen.KernelIdeal.Value
import proofs.«115976_j75771813037022_2_alg».proof.Proof.Body
import proofs.«115976_j75771813037022_2_alg».proof.Proof.HostPrefix
import proofs.«115976_j75771813037022_2_alg».proof.Proof.Spec

noncomputable section

open scoped BigOperators

namespace Cert.Rbf.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's arrangement as an array: at index `i`, `kernelForm` at row `i 0` and column `i 1`. -/
def kernelArr (X : SX.Idx → EReal) (M : SM.Idx → EReal) : SO.Idx → EReal :=
  fun i => kernelForm X M (i 0) (i 1)

theorem zero_offsets : (![0, 0] : Fin 2 → Nat) = fun _ => 0 := funext fun a => by fin_cases a <;> rfl

/-- The printed index maps over the 32 grid points: the sample window moves down the rows with the result window,
    the two host-computed windows and every column index stay at zero, and the row block index is below 32. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block is some point's. -/
theorem index_onto : ∀ r : Fin 32, ∃ t : Fin cfg0.N, win0_3.index t = ![r.val, 0] :=
  (by decide +kernel : ∀ r : Fin 32, ∃ t : Fin grid0.N, win0_3.index t = ![r.val, 0])

/-- The sample block at point `t`, at `(p, k)`: the sample array at row `n`, where `n` is 1024 times the point's
    row block index plus `p`. -/
theorem sample_block (c : Dev nD) (t : Fin cfg0.N) (p : Fin 1024) (k : Fin 512) (n : Fin 32768)
    (hn : n.val = win0_3.index t (0 : Fin 2) * 1024 + 1 * p.val) :
    (iblk m c 0 t : S1024x512.Idx → EReal) (ix2 p k) = m ((c : Thread nD τ).loc main_arg0) (ix2 n k) := by
  obtain ⟨e0, e1, -, -, -, -, -, -⟩ := index_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = n.val; omega
  | ⟨1, _⟩ => show win0_0.index t (1 : Fin 2) * 512 + 1 * k.val = k.val; omega

/-- The scaled-centres block at any point is the whole host-computed array. -/
theorem centres_block (c : Dev nD) (t : Fin cfg0.N) (k : Fin 512) (q : Fin 1024) :
    (iblk m c 1 t : S512x1024.Idx → EReal) (ix2 k q)
      = Ideal.ofBits .f32 0x3E4CCCCD#32 * HostPrefix.centres m c (ix2 k q) := by
  obtain ⟨-, -, e2, e3, -, -, -, -⟩ := index_facts t
  refine Eq.trans ?_ (HostPrefix.scaled_apply m c k q)
  show V m c main_v2 (((cfg0.win 1).blk t).view.emb (ix2 k q)) = V m c main_v2 (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 1024 + 1 * q.val = q.val; omega

/-- The scaled-norms block at any point is the whole host-computed row. -/
theorem norms_block (c : Dev nD) (t : Fin cfg0.N) (q : Fin 1024) :
    (iblk m c 2 t : S1x1024.Idx → EReal) (ix2 (0 : Fin 1) q)
      = Ideal.ofBits .f32 0xBDCCCCCD#32
        * (Ideal.ofBits .f32 0x00000000#32
            + ∑ k : Fin 512, HostPrefix.centres m c (ix2 k q) * HostPrefix.centres m c (ix2 k q)) := by
  obtain ⟨-, -, -, -, e4, e5, -, -⟩ := index_facts t
  refine Eq.trans ?_ (HostPrefix.norms_apply m c 0 q)
  show V m c main_v7 (((cfg0.win 2).blk t).view.emb (ix2 (0 : Fin 1) q)) = V m c main_v7 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- One stored element: at `(p, q)` of its block, point `t` stores the kernel's arrangement at row `n` (1024 times
    the row block index plus `p`) and column `q`. -/
theorem stored_apply (c : Dev nD) (t : Fin cfg0.N) (p q : Fin 1024) (n : Fin 32768)
    (hn : n.val = win0_3.index t (0 : Fin 2) * 1024 + 1 * p.val) :
    k0_pay1 (F := Ideal) (iblk m c 0 t) (iblk m c 1 t) (iblk m c 2 t) (ix2 p q)
      = kernelForm (m ((c : Thread nD τ).loc main_arg0)) (m ((c : Thread nD τ).loc main_arg1)) n q := by
  refine (Body.payload_apply (iblk m c 0 t) (iblk m c 1 t) (iblk m c 2 t) p q).trans ?_
  unfold kernelForm
  refine congrArg Ideal.exp (congrArg₂ (· + ·) (congrArg₂ (· + ·)
    (congrArg (Ideal.ofBits .f32 0xBDCCCCCD#32 * ·) (Finset.sum_congr rfl fun k _ => ?_))
    (Finset.sum_congr rfl fun k _ => ?_)) ?_)
  · rw [sample_block m c t p k n hn]
  · rw [sample_block m c t p k n hn, centres_block m c t k q]
  · exact norms_block m c t q

/-- What point `t` writes back is block `t` of the kernel's arrangement of the argument arrays. -/
theorem flushed_eq (c : Dev nD) (t : Fin cfg0.N) :
    (dats m 0 c).flushed 3 t = ((cfg0.win 3).blk t).view.read (Elt Ideal)
      (kernelArr (m ((c : Thread nD τ).loc main_arg0)) (m ((c : Thread nD τ).loc main_arg1))) := by
  rw [flushed3]
  unfold out0_3
  rw [View.canon_unit_zero zero_offsets]
  simp only [View.ld_unit_zero (S := S1024x512) zero_offsets, View.ld_unit_zero (S := S512x1024) zero_offsets,
    View.ld_unit_zero (S := S1x1024) zero_offsets]
  obtain ⟨-, -, -, -, -, -, e6, e7⟩ := index_facts t
  funext j
  have hj0 : (j 0).val < 1024 := (j 0).isLt
  have hj1 : (j 1).val < 1024 := (j 1).isLt
  show k0_pay1 (F := Ideal) (iblk m c 0 t) (iblk m c 1 t) (iblk m c 2 t) j
    = kernelForm (m ((c : Thread nD τ).loc main_arg0)) (m ((c : Thread nD τ).loc main_arg1))
        ((((cfg0.win 3).blk t).view.emb j) 0) ((((cfg0.win 3).blk t).view.emb j) 1)
  have hq : ((((cfg0.win 3).blk t).view.emb j) 1 : Fin 1024) = ⟨(j 1).val, hj1⟩ := Fin.ext (by
    show win0_3.index t (1 : Fin 2) * 1024 + 1 * (j 1).val = (j 1).val; omega)
  rw [hq]
  refine Eq.trans (congrArg (k0_pay1 (F := Ideal) (iblk m c 0 t) (iblk m c 1 t) (iblk m c 2 t)) (eq_ix2 j)) ?_
  exact stored_apply m c t (j 0) (j 1) _ rfl

/-- An index of the result array is in point `t`'s block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8).slice (win0_3.rect t)).set ↔ _
  rw [View.set_slice_whole, Rect.mem_set_unit]
  exact Iff.rfl

/-- The 32 blocks tile the result array: row `r` is in the block of the point whose row block index is `r / 1024`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run is the kernel's arrangement of the argument arrays. -/
theorem final (c : Dev nD) :
    (dats m 0 c).arrAt 3 cfg0.N
      = kernelArr (m ((c : Thread nD τ).loc main_arg0)) (m ((c : Thread nD τ).loc main_arg1)) :=
  (dats m 0 c).arrAt_eq_of_cover 3 _ (fun t _ => flushed_eq m c t) covered

/-- The kernel's run: every weakly fair execution terminates with the result array at the kernel's arrangement of
    the argument arrays, which are unchanged. -/
theorem run : θ_run defs (onTc (τ := τ) (main (F := Ideal))) ⟨m, fun _ => 0, ρ⟩ fun r => ∀ c : Dev nD,
      r.2.mem ((c : Thread nD τ).loc main_v8)
        = kernelArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Rbf.KernelValue

end
-- ==== Proof.RefValue.lean ====
/-
  The reference, read at an index.

  The reference sums the squares of each sample row and of each centre column, takes the matrix product of the two
  argument arrays, combines them as (row norm - 2 · product) + column norm, scales by the literal -c and
  exponentiates. Read one operation at a time at an index (n, u) of the result, every layout operation sends the
  index to the row n of the sample array and the column u of the centre array, and the result is the arrangement
  `refForm` of the specification.
-/
import proofs.«115976_j75771813037022_2_alg».proof.Proof.Gen.ReferenceIdeal.Read
import proofs.«115976_j75771813037022_2_alg».proof.Proof.Spec

noncomputable section

open scoped BigOperators

namespace Cert.Rbf.RefValue

open Cert.ReferenceIdeal Cert.ReferenceIdeal.Read Idealize.ShloMosaic Idealize.ShloMosaic.ValueIdx

/-- The reference's last stage is the specification's array. -/
theorem ref_eq (X : S32768x512.Idx → EReal) (M : S512x1024.Idx → EReal) :
    val_main_v15 (F := Ideal) X M = rbf X M := by
  funext i
  have e1 : ∀ k : Fin 512, idx_main_v1 (idx_main_v2 (idx_main_v9 i)) k = (ix2 (i 0 : Fin 32768) k : S32768x512.Idx) :=
    fun k => funext fun a => Fin.ext (by match a with | ⟨0, _⟩ => rfl | ⟨1, _⟩ => rfl)
  have e2 : ∀ k : Fin 512, lidx_main_v6 i k = (ix2 (i 0 : Fin 32768) k : S32768x512.Idx) :=
    fun k => funext fun a => Fin.ext (by match a with | ⟨0, _⟩ => rfl | ⟨1, _⟩ => rfl)
  have e3 : ∀ k : Fin 512, ridx_main_v6 i k = (ix2 k (i 1 : Fin 1024) : S512x1024.Idx) :=
    fun k => funext fun a => Fin.ext (by match a with | ⟨0, _⟩ => rfl | ⟨1, _⟩ => rfl)
  have e4 : ∀ k : Fin 512, idx_main_v4 (idx_main_v5 (idx_main_v11 i)) k = (ix2 k (i 1 : Fin 1024) : S512x1024.Idx) :=
    fun k => funext fun a => Fin.ext (by match a with | ⟨0, _⟩ => rfl | ⟨1, _⟩ => rfl)
  rw [val_main_v15_apply, val_main_v14_apply, val_main_v13_apply, val_main_cst_2_apply, val_main_v12_apply,
    val_main_v10_apply, val_main_v9_apply, val_main_v2_apply, val_main_v1_apply, val_main_cst_apply,
    val_main_v8_apply, val_main_v7_apply, val_main_cst_1_apply, val_main_v6_apply, val_main_v11_apply,
    val_main_v5_apply, val_main_v4_apply, val_main_cst_0_apply]
  simp only [val_main_v0_apply, val_main_v3_apply, e1, e2, e3, e4, Ideal.mulf_def, Ideal.addf_def, Ideal.subf_def,
    Ideal.hostUnary_exp_def, Ideal.ofBits_def]
  rfl

end Cert.Rbf.RefValue

end
-- ==== Proof.lean ====
/-
  A radial-basis layer exp(-c·‖x - μ‖²) computed two ways: the equivalence certificate.

  The reference expands the squared distance as ‖x‖² - 2⟨x, μ⟩ + ‖μ‖², scales by -c (c the binary32 nearest to
  1/10) and exponentiates. The kernel distributes -c over the three terms and folds the factor -c · (-2) into the
  centres before the matrix product: the literal it multiplies the centres by is EXACTLY 2c, since doubling a
  binary float only moves its exponent. Over the extended reals the two are one function wherever distributivity
  holds, that is on finite inputs, which is the precondition.

  The pieces: the kernel's result array is the kernel's arrangement of the two argument arrays, grid point by grid
  point (Proof/Body.lean, Proof/HostPrefix.lean, Proof/KernelValue.lean); the reference's result is the reference's
  arrangement (Proof/RefValue.lean); under the precondition every entry is real (Proof/Finite.lean) and then the
  two arrangements agree by a ring identity under the exponential (Proof/Spec.lean, Proof/Consts.lean). The three
  frame claims are the programs' runs with the value forgotten; the idealization rewrote nothing, so there is
  nothing to preserve.
-/
import proofs.«115976_j75771813037022_2_alg».proof.Defs
import proofs.«115976_j75771813037022_2_alg».proof.Proof.Gen.Kernel
import proofs.«115976_j75771813037022_2_alg».proof.Proof.Gen.Kernel.Skeleton
import proofs.«115976_j75771813037022_2_alg».proof.Proof.Gen.Kernel.Launch
import proofs.«115976_j75771813037022_2_alg».proof.Proof.Gen.Kernel.Points
import proofs.«115976_j75771813037022_2_alg».proof.Proof.Gen.Kernel.Frame
import proofs.«115976_j75771813037022_2_alg».proof.Proof.Gen.KernelIdeal
import proofs.«115976_j75771813037022_2_alg».proof.Proof.Gen.KernelIdeal.Skeleton
import proofs.«115976_j75771813037022_2_alg».proof.Proof.Gen.KernelIdeal.Launch
import proofs.«115976_j75771813037022_2_alg».proof.Proof.Gen.KernelIdeal.Points
import proofs.«115976_j75771813037022_2_alg».proof.Proof.Gen.KernelIdeal.Frame
import proofs.«115976_j75771813037022_2_alg».proof.Proof.Gen.ReferenceIdeal
import proofs.«115976_j75771813037022_2_alg».proof.Proof.Gen.KernelIdeal.Value
import proofs.«115976_j75771813037022_2_alg».proof.Proof.Gen.ReferenceIdeal.Run
import proofs.«115976_j75771813037022_2_alg».proof.Proof.Gen.ReferenceIdeal.Read
import proofs.«115976_j75771813037022_2_alg».proof.Proof.Gen.Pre_finite_inputs
import proofs.«115976_j75771813037022_2_alg».proof.Proof.Spec
import proofs.«115976_j75771813037022_2_alg».proof.Proof.Finite
import proofs.«115976_j75771813037022_2_alg».proof.Proof.KernelValue
import proofs.«115976_j75771813037022_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's arrangement of the (agreeing, finite) argument arrays: the
    reference by reading its operations at an index, the kernel through its own arrangement and the expansion law
    on real entries. -/
theorem algebraic : Cert.algebraic_KernelIdeal_ReferenceIdeal := by
  intro m ρ m' ρ' hpre hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.Rbf.KernelValue.run m ρ)
    obtain ⟨hX, hM⟩ := Cert.Rbf.Finite.real_of_pre _ _ (hpre c)
    choose xr hxr using hX
    choose mr hmr using hM
    funext i
    exact Cert.Rbf.kernelForm_eq_refForm _ _ xr mr hxr hmr (i 0) (i 1)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.Rbf.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
